-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part3 {F : FTy → Type} [FloatOps F] (main_v48 : IVec S_ 1) (main_v49 : FVec F S128x47 .f32) (main_v50 : FVec F S128x47 .f32) : IVec S_ 1 :=
  let main_v51 : IVec S128x47 1 := cmpf .olt main_v49 main_v50
  let main_c_19 : IVec S_ 1 := constantI S_ 1 1#1
  let main_v52 : IVec S_ 1 := (fun x v => Host.reduce IntOp.andi x v reducesTo_S128x47_S_d0_1 h_S_) main_v51 main_c_19
  let main_v53 : IVec S_ 1 := andi main_v48 main_v52
  main_v53

def fn_part2 {F : FTy → Type} [FloatOps F] (main_arg8 : FVec F S128x128 .f32) (main_arg9 : FVec F S128x47 .f32) (main_arg10 : FVec F S47 .f32) (main_arg11 : FVec F S128x47 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x47 .f32 := Host.absf main_arg9
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg10
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  let main_v49 : FVec F S128x47 .f32 := Host.absf main_arg11
  let main_cst_18 : FVec F S_ .f32 := constant S_ .f32 0x7F800000#32
  let main_v50 : FVec F S128x47 .f32 := broadcastInDim S128x47 ![] bcast_S_S128x47 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x47 .f32) (main_arg10 : FVec F S47 .f32) (main_arg11 : FVec F S128x47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x47 .f32) (main_arg10 : FVec F S47 .f32) (main_arg11 : FVec F S128x47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S50000x47 : Shape := ⟨2, ![50000, 47]⟩

abbrev nBuf : Space → Nat
  | .hbm => 88
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x47, .f32⟩
  | .hbm, ⟨10, _⟩ => ⟨S47, .f32⟩
  | .hbm, ⟨11, _⟩ => ⟨S128x47, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .bf16⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S1x128, .f32⟩
  | .hbm, ⟨45, _⟩ => ⟨S50000x128, .bf16⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .bf16⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .bf16⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .bf16⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S_, .i32⟩
  | .hbm, ⟨77, _⟩ => ⟨S_, .f32⟩
  | .hbm, ⟨78, _⟩ => ⟨S128x128, .f32⟩
  | .hbm, ⟨79, _⟩ => ⟨S_, .i32⟩
  | .hbm, ⟨80, _⟩ => ⟨S_, .f32⟩
  | .hbm, ⟨81, _⟩ => ⟨S128x128, .f32⟩
  | .hbm, ⟨82, _⟩ => ⟨S_, .i32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S50000x128, .f32⟩
  | .hbm, ⟨87, _⟩ => ⟨S50000x47, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .bf16⟩
  | .local _ .vmem, ⟨5, _⟩ => ⟨S2000x128, .bf16⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .bf16⟩
  | .local _ .vmem, ⟨21, _⟩ => ⟨S2000x128, .bf16⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .bf16⟩
  | .local _ .vmem, ⟨27, _⟩ => ⟨S2000x128, .bf16⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_call0_v0 : Ref sig .tc := ⟨.hbm, 77, rfl⟩
abbrev main_v51 : Ref sig .tc := ⟨.hbm, 78, rfl⟩
abbrev main_c_12 : Ref sig .tc := ⟨.hbm, 79, rfl⟩
abbrev main_call1_v0 : Ref sig .tc := ⟨.hbm, 80, rfl⟩
abbrev main_v52 : Ref sig .tc := ⟨.hbm, 81, rfl⟩
abbrev main_c_13 : Ref sig .tc := ⟨.hbm, 82, rfl⟩
abbrev main_call2_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  pads_S128x47_S128x128_000_0810 : S128x47.Pads (![0, 0] : Fin 2 → Nat) ![0, 81] ![0, 0] S128x128
  h_S_ : 0 < S_.numel
  pads_S47_S128_0810 : S47.Pads (![0] : Fin 1 → Nat) ![81] ![0] S128
  shapeCasts_S128x128_S128x128 : S128x128.ShapeCasts S128x128
  slices_S50000x128_S50000x47_0_0 : S50000x128.Slices ![0, 0] S50000x47
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x47, .f32⟩
  | .hbm, ⟨10, _⟩ => ⟨S47, .f32⟩
  | .hbm, ⟨11, _⟩ => ⟨S128x47, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S_, .f32⟩
  | .hbm, ⟨98, _⟩ => ⟨S800000, .f32⟩
  | .hbm, ⟨99, _⟩ => ⟨S_, .f32⟩
  | .hbm, ⟨100, _⟩ => ⟨S50000, .f32⟩
  | .hbm, ⟨101, _⟩ => ⟨S800000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x128, .f32⟩
  | .hbm, ⟨108, _⟩ => ⟨S50000x128, .f32⟩
  | .hbm, ⟨109, _⟩ => ⟨S50000x47, .f32⟩
  | .hbm, ⟨110, _⟩ => ⟨S1x47, .f32⟩
  | .hbm, ⟨111, _⟩ => ⟨S50000x47, .f32⟩
  | .hbm, ⟨112, _⟩ => ⟨S50000x47, .f32⟩
  | .hbm, ⟨113, _⟩ => ⟨S50000x47, .f32⟩
  | .hbm, ⟨114, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KRun.lean ====
/-
  The idealized kernel's run with the final memory read back.

  The program is three kernel regions among stretches of host operations. Its run through the segments ends with
  every unscoped buffer of a core at the contents the last boundary names: the launch memory carried through each
  stretch of host operations and each region's write-backs in turn. Whatever follows from those final contents
  therefore holds of every terminating execution, and every execution terminates without a fault.
-/
import proofs.«122430_j58506044506346_2_alg».proof.Proof.Gen.KernelIdeal.Frame

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates, nothing faulting, in a state satisfying any `Q` that follows
    from: on every core, every unscoped buffer holds the last boundary's contents. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

end Cert.KernelIdeal.Net

end
-- ==== Proof.LayerSpec.lean ====
/-
  One layer of the network, as each program computes it, and the law that joins the two.

  A layer takes the node features `h` (50000 nodes, 128 features each), the per-node sums `S` of the neighbours'
  features, a per-node divisor, two weight matrices and a bias, and returns for node `n` and output column `q`

      ∑ₖ mean(n, k) · Wl(k, q)  +  ∑ₖ h(n, k) · Wr(k, q)  +  b(q),        mean(n, k) = S(n, k) / d(n),

  optionally followed by the maximum with zero.

  * The kernel multiplies by a precomputed reciprocal, `S(n, k) · (1 / d(n))`, adds the two products first and the
    bias last, and always works with 128 output columns (`kLayer`).
  * The reference divides, `S(n, k) / d(n)`, adds the bias to the first product and the second product last, and has
    `C` output columns (`rLayer`).

  On the extended reals the quotient by a divisor other than zero IS the product with the divisor's inverse, at the
  infinities too, so `s · (1 / d) = s / d` whenever `d ≠ 0`; and a sum of three terms does not depend on the order in
  which they are added. Nothing else separates the two, so the layers agree wherever the kernel's weights and bias
  at column `q'` are the reference's at column `q` (`kLayer_eq_rLayer_at`). No finiteness is needed.
-/
import Idealize.ShloMosaic.Lib.ValueIdx
import Idealize.ShloMosaic.PureOps.Ideal.Laws
import Idealize.ShloMosaic.Lib.IdealHost

noncomputable section

open scoped BigOperators

namespace Cert.Net.Spec

open Idealize.ShloMosaic Idealize.ShloMosaic.ValueIdx

/-- The layer's last step: the maximum with zero, or nothing. The zero is kept as its float word, the same word in
    both programs. -/
def act (relu : Bool) (x : EReal) : EReal := if relu then max x (Ideal.ofBits .f32 0x00000000#32) else x

/-- A layer as the kernel computes it: the sums times the reciprocal, both products, then the bias row. -/
def kLayer (relu : Bool) (S : (⟨2, ![50000, 128]⟩ : Shape).Idx → EReal) (invd : (⟨2, ![50000, 1]⟩ : Shape).Idx → EReal)
    (h : (⟨2, ![50000, 128]⟩ : Shape).Idx → EReal) (Wl : (⟨2, ![128, 128]⟩ : Shape).Idx → EReal)
    (bl : (⟨2, ![1, 128]⟩ : Shape).Idx → EReal) (Wr : (⟨2, ![128, 128]⟩ : Shape).Idx → EReal) :
    (⟨2, ![50000, 128]⟩ : Shape).Idx → EReal :=
  fun i => act relu (((∑ k : Fin 128, (S (ix2 (i 0) k) * invd (ix2 (i 0) (0 : Fin 1))) * Wl (ix2 k (i 1)))
      + ∑ k : Fin 128, h (ix2 (i 0) k) * Wr (ix2 k (i 1))) + bl (ix2 (0 : Fin 1) (i 1)))

theorem kLayer_apply (relu : Bool) (S : (⟨2, ![50000, 128]⟩ : Shape).Idx → EReal) (invd : (⟨2, ![50000, 1]⟩ : Shape).Idx → EReal)
    (h : (⟨2, ![50000, 128]⟩ : Shape).Idx → EReal) (Wl : (⟨2, ![128, 128]⟩ : Shape).Idx → EReal)
    (bl : (⟨2, ![1, 128]⟩ : Shape).Idx → EReal) (Wr : (⟨2, ![128, 128]⟩ : Shape).Idx → EReal) (n : Fin 50000) (q : Fin 128) :
    kLayer relu S invd h Wl bl Wr (ix2 n q)
      = act relu (((∑ k : Fin 128, (S (ix2 n k) * invd (ix2 n (0 : Fin 1))) * Wl (ix2 k q))
          + ∑ k : Fin 128, h (ix2 n k) * Wr (ix2 k q)) + bl (ix2 (0 : Fin 1) q)) := rfl

/-- A layer as the reference computes it: the sums divided, the first product, the bias, then the second product. -/
def rLayer {C : Nat} (relu : Bool) (S : (⟨2, ![50000, 128]⟩ : Shape).Idx → EReal) (d : (⟨1, ![50000]⟩ : Shape).Idx → EReal)
    (h : (⟨2, ![50000, 128]⟩ : Shape).Idx → EReal) (Wl : (⟨2, ![128, C]⟩ : Shape).Idx → EReal)
    (bl : (⟨1, ![C]⟩ : Shape).Idx → EReal) (Wr : (⟨2, ![128, C]⟩ : Shape).Idx → EReal) :
    (⟨2, ![50000, C]⟩ : Shape).Idx → EReal :=
  fun i => act relu (((∑ k : Fin 128, Ideal.div (S (ix2 (i 0) k)) (d (ix1 (i 0))) * Wl (ix2 k (i 1))) + bl (ix1 (i 1)))
      + ∑ k : Fin 128, h (ix2 (i 0) k) * Wr (ix2 k (i 1)))

theorem rLayer_apply {C : Nat} (relu : Bool) (S : (⟨2, ![50000, 128]⟩ : Shape).Idx → EReal) (d : (⟨1, ![50000]⟩ : Shape).Idx → EReal)
    (h : (⟨2, ![50000, 128]⟩ : Shape).Idx → EReal) (Wl : (⟨2, ![128, C]⟩ : Shape).Idx → EReal)
    (bl : (⟨1, ![C]⟩ : Shape).Idx → EReal) (Wr : (⟨2, ![128, C]⟩ : Shape).Idx → EReal) (n : Fin 50000) (q : Fin C) :
    rLayer relu S d h Wl bl Wr (ix2 n q)
      = act relu (((∑ k : Fin 128, Ideal.div (S (ix2 n k)) (d (ix1 n)) * Wl (ix2 k q)) + bl (ix1 q))
          + ∑ k : Fin 128, h (ix2 n k) * Wr (ix2 k q)) := rfl

/-- The product with the reciprocal of a divisor other than zero is the quotient, on every extended real. -/
theorem mul_recip_eq_div (s y : EReal) (hy : y ≠ 0) : s * Ideal.div 1 y = Ideal.div s y := by
  unfold Ideal.div
  rw [if_neg hy, if_neg hy, one_mul]

/-- A maximum with one is not zero. -/
theorem max_one_ne_zero (x : EReal) : max x 1 ≠ 0 :=
  ne_of_gt (lt_of_lt_of_le zero_lt_one (le_max_right x 1))

/-- THE LAW: at node `n` the kernel's layer at column `q'` is the reference's layer at column `q`, when the node's
    divisor is not zero, the kernel's factor is its reciprocal, and the kernel's weights and bias at column `q'` are
    the reference's at column `q`. -/
theorem kLayer_eq_rLayer_at {C : Nat} (relu : Bool) (S : (⟨2, ![50000, 128]⟩ : Shape).Idx → EReal)
    (invd : (⟨2, ![50000, 1]⟩ : Shape).Idx → EReal) (h : (⟨2, ![50000, 128]⟩ : Shape).Idx → EReal)
    (WlK : (⟨2, ![128, 128]⟩ : Shape).Idx → EReal) (blK : (⟨2, ![1, 128]⟩ : Shape).Idx → EReal)
    (WrK : (⟨2, ![128, 128]⟩ : Shape).Idx → EReal)
    (d : (⟨1, ![50000]⟩ : Shape).Idx → EReal) (Wl : (⟨2, ![128, C]⟩ : Shape).Idx → EReal)
    (bl : (⟨1, ![C]⟩ : Shape).Idx → EReal) (Wr : (⟨2, ![128, C]⟩ : Shape).Idx → EReal)
    (n : Fin 50000) (q' : Fin 128) (q : Fin C)
    (hd : d (ix1 n) ≠ 0) (hinv : invd (ix2 n (0 : Fin 1)) = Ideal.div 1 (d (ix1 n)))
    (hWl : ∀ k : Fin 128, WlK (ix2 k q') = Wl (ix2 k q)) (hWr : ∀ k : Fin 128, WrK (ix2 k q') = Wr (ix2 k q))
    (hbl : blK (ix2 (0 : Fin 1) q') = bl (ix1 q)) :
    kLayer relu S invd h WlK blK WrK (ix2 n q') = rLayer relu S d h Wl bl Wr (ix2 n q) := by
  rw [kLayer_apply, rLayer_apply]
  have e1 : ∀ k : Fin 128, (S (ix2 n k) * invd (ix2 n (0 : Fin 1))) * WlK (ix2 k q')
      = Ideal.div (S (ix2 n k)) (d (ix1 n)) * Wl (ix2 k q) := fun k => by
    rw [hinv, mul_recip_eq_div _ _ hd, hWl]
  have e2 : ∀ k : Fin 128, h (ix2 n k) * WrK (ix2 k q') = h (ix2 n k) * Wr (ix2 k q) := fun k => by rw [hWr]
  rw [Finset.sum_congr rfl (fun k _ => e1 k), Finset.sum_congr rfl (fun k _ => e2 k), hbl, add_right_comm]

end Cert.Net.Spec

end
-- ==== Proof.BlockLayout.lean ====
/-
  Two broadcasts of small blocks read at an entry.

  A column of `M` row values (an `M × 1` block) repeated along `N` lanes reads, at row `p` and lane `q`, the value of
  row `p`; a row of `N` values (a `1 × N` block) repeated down `M` rows reads the value at lane `q`.
-/
import Idealize.ShloMosaic.Lib.ValueIdx
import Idealize.ShloMosaic.Lib.Pipeline.Value

noncomputable section

namespace Cert.Net.Layout

open Idealize.ShloMosaic Idealize.ShloMosaic.ValueIdx

/-- An `2000 × 1` column repeated along 128 lanes, at `(p, q)`: the column's entry of row `p`. -/
theorem bcast_col {α : Type} (x : (⟨2, ![2000, 1]⟩ : Shape).Idx → α)
    (hb : (⟨2, ![2000, 1]⟩ : Shape).Broadcasts ⟨2, ![2000, 128]⟩) (p : Fin 2000) (q : Fin 128) :
    broadcastTo ⟨2, ![2000, 128]⟩ x hb (ix2 p q) = x (ix2 p (0 : Fin 1)) :=
  broadcastTo_apply x hb (ix2 p q) (ix2 p (0 : Fin 1)) (fun a => match a with
    | ⟨0, _⟩ => by show p.val = if (2000 : Nat) = 1 then 0 else p.val; rw [if_neg (by decide)]
    | ⟨1, _⟩ => by show 0 = if (1 : Nat) = 1 then 0 else q.val; rw [if_pos rfl])

/-- A `1 × 128` row repeated down 2000 rows, at `(p, q)`: the row's entry of lane `q`. -/
theorem bcast_row {α : Type} (x : (⟨2, ![1, 128]⟩ : Shape).Idx → α)
    (hb : (⟨2, ![1, 128]⟩ : Shape).Broadcasts ⟨2, ![2000, 128]⟩) (p : Fin 2000) (q : Fin 128) :
    broadcastTo ⟨2, ![2000, 128]⟩ x hb (ix2 p q) = x (ix2 (0 : Fin 1) q) :=
  broadcastTo_apply x hb (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

end Cert.Net.Layout

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Region0.lean ====
/-
  Region 0 of the idealized kernel, read as one whole-array function.

  The region runs its body at 25 grid points. At point `t` the body sees rows `2000·t … 2000·t + 1999` of the three
  node arrays (the neighbour sums, the reciprocal degrees, the node features) and the whole of the two weight matrices
  and the bias row, and writes rows `2000·t … 2000·t + 1999` of the output. Its arithmetic at row `p`, lane `q` of the
  block is the layer's formula `Spec.kLayer` at node `2000·t + p`, column `q`: the two matrix products into zero are
  sums over the 128 features, the reciprocal degree is a column repeated along the lanes, the bias a row repeated down
  the rows, and a change of float format changes nothing on the extended reals. The 25 blocks tile the 50000 rows, so
  after the region the output array IS `Spec.kLayer` of the six input arrays as the region found them.
-/
import proofs.«122430_j58506044506346_2_alg».proof.Proof.Gen.KernelIdeal.Frame
import proofs.«122430_j58506044506346_2_alg».proof.Proof.LayerSpec
import proofs.«122430_j58506044506346_2_alg».proof.Proof.BlockLayout
import proofs.«122430_j58506044506346_2_alg».proof.Proof.LibPlainDot
import Idealize.ShloMosaic.Lib.Pipeline.Value
import Idealize.ShloMosaic.Lib.ValueIdx

set_option maxRecDepth 16384

noncomputable section

open scoped BigOperators

namespace Cert.KernelIdeal.Net

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net.Spec

/-- The body's dimension numbers are those of a plain `2000 × 128` by `128 × 128` product. -/
theorem dot_plain0 : dot_S2000x128_S128x128_S2000x128_1_0_0_1_n_n = DotDims.plain 2000 128 128 := rfl

/-- A product into the zero accumulator at entry `(p, q)`: the sum over the 128 features. -/
theorem matmul0_apply {φ₁ φ₂ : FTy} (l : FVec Ideal S2000x128 φ₁) (r : FVec Ideal S128x128 φ₂) (p : Fin 2000) (q : Fin 128) :
    matmul (DotDims.plain 2000 128 128) none l r (constant S2000x128 .f32 0x00000000#32) (ix2 p q)
      = ∑ k : Fin 128, l (ix2 p k) * r (ix2 k q) :=
  Cert.Lib.PlainDot.matmul_zero_apply none l r p q

/-- The body's arithmetic at row `p`, lane `q` of the block, from the six loaded blocks. -/
theorem pay0_apply (x0 : Vec Ideal S2000x128 .f32) (x1 : Vec Ideal S2000x1 .f32) (x2 : Vec Ideal S2000x128 .bf16)
    (x3 x5 : Vec Ideal S128x128 .f32) (x4 : Vec Ideal S1x128 .f32) (p : Fin 2000) (q : Fin 128) :
    k0_pay1 (F := Ideal) x0 x1 x2 x3 x5 x4 (ix2 p q)
      = act true (((∑ k : Fin 128, (x0 (ix2 p k) * x1 (ix2 p (0 : Fin 1))) * x3 (ix2 k q))
          + ∑ k : Fin 128, x2 (ix2 p k) * x5 (ix2 k q)) + x4 (ix2 (0 : Fin 1) q)) := by
  unfold k0_pay1
  simp only [shapeCast_self]
  rw [truncf_apply, maximumf_apply, addf_apply, addf_apply, broadcast_apply, dot_plain0,
    matmul0_apply, matmul0_apply, Cert.Net.Layout.bcast_row]
  simp only [truncf_apply, mulf_apply, Cert.Net.Layout.bcast_col]
  rfl

theorem hz0 : (![0, 0] : Fin 2 → Nat) = fun _ => 0 := funext fun a => by fin_cases a <;> rfl

/-- The printed index maps over the grid: the three node windows and the output move with the point along the rows;
    the weights and the bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section AtContents

variable (V : (c : Dev nD) → (b : Ref sig .tc) → Buf (Elt Ideal) ((c : Thread nD τ).loc b))

/-- The layer of the region's six input arrays as the region finds them. -/
abbrev layer0 (c : Dev nD) : (⟨2, ![50000, 128]⟩ : Shape).Idx → EReal :=
  kLayer true (V c main_v24) (V c main_v12) (V c main_v13) (V c main_arg3) (V c main_v25) (V c main_arg5)

/-- WHAT POINT `t` WRITES BACK is block `t` of the layer of the input arrays. -/
theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz0]
  simp only [View.ld_unit_zero (S := S2000x128) hz0, View.ld_unit_zero (S := S2000x1) hz0,
    View.ld_unit_zero (S := S128x128) hz0, View.ld_unit_zero (S := S1x128) hz0]
  obtain ⟨e00, e01, e10, e11, e20, e21, e30, e31, e40, e41, e50, e51, e60, e61⟩ := idx_facts0 t
  have ht : t.val < 25 := lt_of_lt_of_eq t.isLt N_0
  funext j
  obtain ⟨p, q, rfl⟩ : ∃ (p : Fin 2000) (q : Fin 128), j = ix2 p q := ⟨j 0, j 1, eq_ix2 j⟩
  have hp : p.val < 2000 := p.isLt
  have hq : q.val < 128 := q.isLt
  refine (pay0_apply (iblk0 V c 0 t) (iblk0 V c 1 t) (iblk0 V c 2 t) (iblk0 V c 3 t) (iblk0 V c 5 t) (iblk0 V c 4 t) p q).trans ?_
  -- the node of row `p` of block `t`
  let P : Fin 50000 := ⟨t.val * 2000 + p.val, by omega⟩
  have r0 : ∀ k : Fin 128, iblk0 V c 0 t (ix2 p k) = V c main_v24 (ix2 P k) := fun k => by
    show V c main_v24 (((cfg0.win 0).blk t).view.emb (ix2 p k)) = V c main_v24 (ix2 P k)
    refine congrArg (V c main_v24) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have r1 : iblk0 V c 1 t (ix2 p (0 : Fin 1)) = V c main_v12 (ix2 P (0 : Fin 1)) := by
    show V c main_v12 (((cfg0.win 1).blk t).view.emb (ix2 p (0 : Fin 1))) = V c main_v12 (ix2 P (0 : Fin 1))
    refine congrArg (V c main_v12) (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  have r2 : ∀ k : Fin 128, iblk0 V c 2 t (ix2 p k) = V c main_v13 (ix2 P k) := fun k => by
    show V c main_v13 (((cfg0.win 2).blk t).view.emb (ix2 p k)) = V c main_v13 (ix2 P k)
    refine congrArg (V c main_v13) (funext fun a => Fin.ext ?_)
    match a with
    | ⟨0, _⟩ => show win0_2.index t (0 : Fin 2) * 2000 + 1 * p.val = t.val * 2000 + p.val; omega
    | ⟨1, _⟩ => show win0_2.index t (1 : Fin 2) * 128 + 1 * k.val = k.val; omega
  have r3 : ∀ k : Fin 128, iblk0 V c 3 t (ix2 k q) = V c main_arg3 (ix2 k q) := fun k => by
    show V c main_arg3 (((cfg0.win 3).blk t).view.emb (ix2 k q)) = V c main_arg3 (ix2 k q)
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have r4 : iblk0 V c 4 t (ix2 (0 : Fin 1) q) = V c main_v25 (ix2 (0 : Fin 1) q) := by
    show V c main_v25 (((cfg0.win 4).blk t).view.emb (ix2 (0 : Fin 1) q)) = V c main_v25 (ix2 (0 : Fin 1) q)
    refine congrArg (V c main_v25) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  have r5 : ∀ k : Fin 128, iblk0 V c 5 t (ix2 k q) = V c main_arg5 (ix2 k q) := fun k => by
    show V c main_arg5 (((cfg0.win 5).blk t).view.emb (ix2 k q)) = V c main_arg5 (ix2 k q)
    refine congrArg (V c main_arg5) (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  have e6 : ((cfg0.win 6).blk t).view.emb (ix2 p q) = ix2 P q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  show _ = layer0 V c (((cfg0.win 6).blk t).view.emb (ix2 p q))
  rw [e6]
  show _ = kLayer true (V c main_v24) (V c main_v12) (V c main_v13) (V c main_arg3) (V c main_v25) (V c main_arg5) (ix2 P q)
  rw [kLayer_apply]
  simp only [r0, r1, r2, r3, r4, r5]

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v26).slice (win0_6.rect t)).set ↔ _
  rw [View.set_slice_whole, Rect.mem_set_unit]
  exact Iff.rfl

/-- Every row of the output is in some point's block: row `r` in the block of point `r / 2000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨e00, e01, e10, e11, e20, e21, e30, e31, e40, e41, e50, e51, e60, e61⟩ := idx_facts0 t
  have htv : t.val = (i 0).val / 2000 := rfl
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE OUTPUT ARRAY after the region: the layer of the six input arrays as the region found them. -/
theorem arr0 (c : Dev nD) : (dat0 V c).arrAt 6 cfg0.N = layer0 V c :=
  (dat0 V c).arrAt_eq_of_cover 6 (layer0 V c) (fun t _ => flushed0_eq V c t) (cover0)

end AtContents

end Cert.KernelIdeal.Net

end
-- ==== Proof.Region1.lean ====
/-
  Region 1 of the idealized kernel, read as one whole-array function.

  The region runs its body at 25 grid points. At point `t` the body sees rows `2000·t … 2000·t + 1999` of the three
  node arrays (the neighbour sums, the reciprocal degrees, the node features) and the whole of the two weight matrices
  and the bias row, and writes rows `2000·t … 2000·t + 1999` of the output. Its arithmetic at row `p`, lane `q` of the
  block is the layer's formula `Spec.kLayer` at node `2000·t + p`, column `q`: the two matrix products into zero are
  sums over the 128 features, the reciprocal degree is a column repeated along the lanes, the bias a row repeated down
  the rows, and a change of float format changes nothing on the extended reals. The 25 blocks tile the 50000 rows, so
  after the region the output array IS `Spec.kLayer` of the six input arrays as the region found them.
-/
import proofs.«122430_j58506044506346_2_alg».proof.Proof.Gen.KernelIdeal.Frame
import proofs.«122430_j58506044506346_2_alg».proof.Proof.LayerSpec
import proofs.«122430_j58506044506346_2_alg».proof.Proof.BlockLayout
import proofs.«122430_j58506044506346_2_alg».proof.Proof.LibPlainDot
import Idealize.ShloMosaic.Lib.Pipeline.Value
import Idealize.ShloMosaic.Lib.ValueIdx

set_option maxRecDepth 16384

noncomputable section

open scoped BigOperators

namespace Cert.KernelIdeal.Net

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net.Spec

/-- The body's dimension numbers are those of a plain `2000 × 128` by `128 × 128` product. -/
theorem dot_plain1 : dot_S2000x128_S128x128_S2000x128_1_0_0_1_n_n = DotDims.plain 2000 128 128 := rfl

/-- A product into the zero accumulator at entry `(p, q)`: the sum over the 128 features. -/
theorem matmul1_apply {φ₁ φ₂ : FTy} (l : FVec Ideal S2000x128 φ₁) (r : FVec Ideal S128x128 φ₂) (p : Fin 2000) (q : Fin 128) :
    matmul (DotDims.plain 2000 128 128) none l r (constant S2000x128 .f32 0x00000000#32) (ix2 p q)
      = ∑ k : Fin 128, l (ix2 p k) * r (ix2 k q) :=
  Cert.Lib.PlainDot.matmul_zero_apply none l r p q

/-- The body's arithmetic at row `p`, lane `q` of the block, from the six loaded blocks. -/
theorem pay1_apply (x0 : Vec Ideal S2000x128 .f32) (x1 : Vec Ideal S2000x1 .f32) (x2 : Vec Ideal S2000x128 .bf16)
    (x3 x5 : Vec Ideal S128x128 .f32) (x4 : Vec Ideal S1x128 .f32) (p : Fin 2000) (q : Fin 128) :
    k1_pay1 (F := Ideal) x0 x1 x2 x3 x5 x4 (ix2 p q)
      = act true (((∑ k : Fin 128, (x0 (ix2 p k) * x1 (ix2 p (0 : Fin 1))) * x3 (ix2 k q))
          + ∑ k : Fin 128, x2 (ix2 p k) * x5 (ix2 k q)) + x4 (ix2 (0 : Fin 1) q)) := by
  unfold k1_pay1
  simp only [shapeCast_self]
  rw [truncf_apply, maximumf_apply, addf_apply, addf_apply, broadcast_apply, dot_plain1,
    matmul1_apply, matmul1_apply, Cert.Net.Layout.bcast_row]
  simp only [truncf_apply, mulf_apply, Cert.Net.Layout.bcast_col]
  rfl

theorem hz1 : (![0, 0] : Fin 2 → Nat) = fun _ => 0 := funext fun a => by fin_cases a <;> rfl

/-- The printed index maps over the grid: the three node windows and the output move with the point along the rows;
    the weights and the bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section AtContents

variable (V : (c : Dev nD) → (b : Ref sig .tc) → Buf (Elt Ideal) ((c : Thread nD τ).loc b))

/-- The layer of the region's six input arrays as the region finds them. -/
abbrev layer1 (c : Dev nD) : (⟨2, ![50000, 128]⟩ : Shape).Idx → EReal :=
  kLayer true (V c main_v37) (V c main_v12) (V c main_v26) (V c main_arg6) (V c main_v38) (V c main_arg8)

/-- WHAT POINT `t` WRITES BACK is block `t` of the layer of the input arrays. -/
theorem flushed1_eq (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S2000x1) hz1,
    View.ld_unit_zero (S := S128x128) hz1, View.ld_unit_zero (S := S1x128) hz1]
  obtain ⟨e00, e01, e10, e11, e20, e21, e30, e31, e40, e41, e50, e51, e60, e61⟩ := idx_facts1 t
  have ht : t.val < 25 := lt_of_lt_of_eq t.isLt N_1
  funext j
  obtain ⟨p, q, rfl⟩ : ∃ (p : Fin 2000) (q : Fin 128), j = ix2 p q := ⟨j 0, j 1, eq_ix2 j⟩
  have hp : p.val < 2000 := p.isLt
  have hq : q.val < 128 := q.isLt
  refine (pay1_apply (iblk1 V c 0 t) (iblk1 V c 1 t) (iblk1 V c 2 t) (iblk1 V c 3 t) (iblk1 V c 5 t) (iblk1 V c 4 t) p q).trans ?_
  -- the node of row `p` of block `t`
  let P : Fin 50000 := ⟨t.val * 2000 + p.val, by omega⟩
  have r0 : ∀ k : Fin 128, iblk1 V c 0 t (ix2 p k) = V c main_v37 (ix2 P k) := fun k => by
    show V c main_v37 (((cfg1.win 0).blk t).view.emb (ix2 p k)) = V c main_v37 (ix2 P k)
    refine congrArg (V c main_v37) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have r1 : iblk1 V c 1 t (ix2 p (0 : Fin 1)) = V c main_v12 (ix2 P (0 : Fin 1)) := by
    show V c main_v12 (((cfg1.win 1).blk t).view.emb (ix2 p (0 : Fin 1))) = V c main_v12 (ix2 P (0 : Fin 1))
    refine congrArg (V c main_v12) (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  have r2 : ∀ k : Fin 128, iblk1 V c 2 t (ix2 p k) = V c main_v26 (ix2 P k) := fun k => by
    show V c main_v26 (((cfg1.win 2).blk t).view.emb (ix2 p k)) = V c main_v26 (ix2 P k)
    refine congrArg (V c main_v26) (funext fun a => Fin.ext ?_)
    match a with
    | ⟨0, _⟩ => show win1_2.index t (0 : Fin 2) * 2000 + 1 * p.val = t.val * 2000 + p.val; omega
    | ⟨1, _⟩ => show win1_2.index t (1 : Fin 2) * 128 + 1 * k.val = k.val; omega
  have r3 : ∀ k : Fin 128, iblk1 V c 3 t (ix2 k q) = V c main_arg6 (ix2 k q) := fun k => by
    show V c main_arg6 (((cfg1.win 3).blk t).view.emb (ix2 k q)) = V c main_arg6 (ix2 k q)
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have r4 : iblk1 V c 4 t (ix2 (0 : Fin 1) q) = V c main_v38 (ix2 (0 : Fin 1) q) := by
    show V c main_v38 (((cfg1.win 4).blk t).view.emb (ix2 (0 : Fin 1) q)) = V c main_v38 (ix2 (0 : Fin 1) q)
    refine congrArg (V c main_v38) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  have r5 : ∀ k : Fin 128, iblk1 V c 5 t (ix2 k q) = V c main_arg8 (ix2 k q) := fun k => by
    show V c main_arg8 (((cfg1.win 5).blk t).view.emb (ix2 k q)) = V c main_arg8 (ix2 k q)
    refine congrArg (V c main_arg8) (funext fun a => Fin.ext ?_)
    match a with
    | ⟨0, _⟩ => show win1_5.index t (0 : Fin 2) * 128 + 1 * k.val = k.val; omega
    | ⟨1, _⟩ => show win1_5.index t (1 : Fin 2) * 128 + 1 * q.val = q.val; omega
  have e6 : ((cfg1.win 6).blk t).view.emb (ix2 p q) = ix2 P q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show _ = layer1 V c (((cfg1.win 6).blk t).view.emb (ix2 p q))
  rw [e6]
  show _ = kLayer true (V c main_v37) (V c main_v12) (V c main_v26) (V c main_arg6) (V c main_v38) (V c main_arg8) (ix2 P q)
  rw [kLayer_apply]
  simp only [r0, r1, r2, r3, r4, r5]

/-- An index of the output array is in point `t`'s block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v39).slice (win1_6.rect t)).set ↔ _
  rw [View.set_slice_whole, Rect.mem_set_unit]
  exact Iff.rfl

/-- Every row of the output is in some point's block: row `r` in the block of point `r / 2000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨e00, e01, e10, e11, e20, e21, e30, e31, e40, e41, e50, e51, e60, e61⟩ := idx_facts1 t
  have htv : t.val = (i 0).val / 2000 := rfl
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- THE OUTPUT ARRAY after the region: the layer of the six input arrays as the region found them. -/
theorem arr1 (c : Dev nD) : (dat1 V c).arrAt 6 cfg1.N = layer1 V c :=
  (dat1 V c).arrAt_eq_of_cover 6 (layer1 V c) (fun t _ => flushed1_eq V c t) (cover1)

end AtContents

end Cert.KernelIdeal.Net

end
-- ==== Proof.Region2.lean ====
/-
  Region 2 of the idealized kernel, read as one whole-array function.

  The region runs its body at 25 grid points. At point `t` the body sees rows `2000·t … 2000·t + 1999` of the three
  node arrays (the neighbour sums, the reciprocal degrees, the node features) and the whole of the two weight matrices
  and the bias row, and writes rows `2000·t … 2000·t + 1999` of the output. Its arithmetic at row `p`, lane `q` of the
  block is the layer's formula `Spec.kLayer` at node `2000·t + p`, column `q`: the two matrix products into zero are
  sums over the 128 features, the reciprocal degree is a column repeated along the lanes, the bias a row repeated down
  the rows, and a change of float format changes nothing on the extended reals. The 25 blocks tile the 50000 rows, so
  after the region the output array IS `Spec.kLayer` of the six input arrays as the region found them.
-/
import proofs.«122430_j58506044506346_2_alg».proof.Proof.Gen.KernelIdeal.Frame
import proofs.«122430_j58506044506346_2_alg».proof.Proof.LayerSpec
import proofs.«122430_j58506044506346_2_alg».proof.Proof.BlockLayout
import proofs.«122430_j58506044506346_2_alg».proof.Proof.LibPlainDot
import Idealize.ShloMosaic.Lib.Pipeline.Value
import Idealize.ShloMosaic.Lib.ValueIdx

set_option maxRecDepth 16384

noncomputable section

open scoped BigOperators

namespace Cert.KernelIdeal.Net

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net.Spec

/-- The body's dimension numbers are those of a plain `2000 × 128` by `128 × 128` product. -/
theorem dot_plain2 : dot_S2000x128_S128x128_S2000x128_1_0_0_1_n_n = DotDims.plain 2000 128 128 := rfl

/-- A product into the zero accumulator at entry `(p, q)`: the sum over the 128 features. -/
theorem matmul2_apply {φ₁ φ₂ : FTy} (l : FVec Ideal S2000x128 φ₁) (r : FVec Ideal S128x128 φ₂) (p : Fin 2000) (q : Fin 128) :
    matmul (DotDims.plain 2000 128 128) none l r (constant S2000x128 .f32 0x00000000#32) (ix2 p q)
      = ∑ k : Fin 128, l (ix2 p k) * r (ix2 k q) :=
  Cert.Lib.PlainDot.matmul_zero_apply none l r p q

/-- The body's arithmetic at row `p`, lane `q` of the block, from the six loaded blocks. -/
theorem pay2_apply (x0 : Vec Ideal S2000x128 .f32) (x1 : Vec Ideal S2000x1 .f32) (x2 : Vec Ideal S2000x128 .bf16)
    (x3 x5 : Vec Ideal S128x128 .f32) (x4 : Vec Ideal S1x128 .f32) (p : Fin 2000) (q : Fin 128) :
    k2_pay1 (F := Ideal) x0 x1 x2 x3 x5 x4 (ix2 p q)
      = act false (((∑ k : Fin 128, (x0 (ix2 p k) * x1 (ix2 p (0 : Fin 1))) * x3 (ix2 k q))
          + ∑ k : Fin 128, x2 (ix2 p k) * x5 (ix2 k q)) + x4 (ix2 (0 : Fin 1) q)) := by
  unfold k2_pay1
  simp only [shapeCast_self]
  rw [addf_apply, addf_apply, dot_plain2,
    matmul2_apply, matmul2_apply, Cert.Net.Layout.bcast_row]
  simp only [truncf_apply, mulf_apply, Cert.Net.Layout.bcast_col]
  rfl

theorem hz2 : (![0, 0] : Fin 2 → Nat) = fun _ => 0 := funext fun a => by fin_cases a <;> rfl

/-- The printed index maps over the grid: the three node windows and the output move with the point along the rows;
    the weights and the bias stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

section AtContents

variable (V : (c : Dev nD) → (b : Ref sig .tc) → Buf (Elt Ideal) ((c : Thread nD τ).loc b))

/-- The layer of the region's six input arrays as the region finds them. -/
abbrev layer2 (c : Dev nD) : (⟨2, ![50000, 128]⟩ : Shape).Idx → EReal :=
  kLayer false (V c main_v50) (V c main_v12) (V c main_v39) (V c main_v51) (V c main_v54) (V c main_v52)

/-- WHAT POINT `t` WRITES BACK is block `t` of the layer of the input arrays. -/
theorem flushed2_eq (c : Dev nD) (t : Fin cfg2.N) :
    (dat2 V c).flushed 6 t = ((cfg2.win 6).blk t).view.read (Elt Ideal) (layer2 V c) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S2000x1) hz2,
    View.ld_unit_zero (S := S128x128) hz2, View.ld_unit_zero (S := S1x128) hz2]
  obtain ⟨e00, e01, e10, e11, e20, e21, e30, e31, e40, e41, e50, e51, e60, e61⟩ := idx_facts2 t
  have ht : t.val < 25 := lt_of_lt_of_eq t.isLt N_2
  funext j
  obtain ⟨p, q, rfl⟩ : ∃ (p : Fin 2000) (q : Fin 128), j = ix2 p q := ⟨j 0, j 1, eq_ix2 j⟩
  have hp : p.val < 2000 := p.isLt
  have hq : q.val < 128 := q.isLt
  refine (pay2_apply (iblk2 V c 0 t) (iblk2 V c 1 t) (iblk2 V c 2 t) (iblk2 V c 3 t) (iblk2 V c 5 t) (iblk2 V c 4 t) p q).trans ?_
  -- the node of row `p` of block `t`
  let P : Fin 50000 := ⟨t.val * 2000 + p.val, by omega⟩
  have r0 : ∀ k : Fin 128, iblk2 V c 0 t (ix2 p k) = V c main_v50 (ix2 P k) := fun k => by
    show V c main_v50 (((cfg2.win 0).blk t).view.emb (ix2 p k)) = V c main_v50 (ix2 P k)
    refine congrArg (V c main_v50) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  have r1 : iblk2 V c 1 t (ix2 p (0 : Fin 1)) = V c main_v12 (ix2 P (0 : Fin 1)) := by
    show V c main_v12 (((cfg2.win 1).blk t).view.emb (ix2 p (0 : Fin 1))) = V c main_v12 (ix2 P (0 : Fin 1))
    refine congrArg (V c main_v12) (funext fun a => Fin.ext ?_)
    match a with
    | ⟨0, _⟩ => show win2_1.index t (0 : Fin 2) * 2000 + 1 * p.val = t.val * 2000 + p.val; omega
    | ⟨1, _⟩ => show win2_1.index t (1 : Fin 2) * 1 + 1 * 0 = 0; omega
  have r2 : ∀ k : Fin 128, iblk2 V c 2 t (ix2 p k) = V c main_v39 (ix2 P k) := fun k => by
    show V c main_v39 (((cfg2.win 2).blk t).view.emb (ix2 p k)) = V c main_v39 (ix2 P k)
    refine congrArg (V c main_v39) (funext fun a => Fin.ext ?_)
    match a with
    | ⟨0, _⟩ => show win2_2.index t (0 : Fin 2) * 2000 + 1 * p.val = t.val * 2000 + p.val; omega
    | ⟨1, _⟩ => show win2_2.index t (1 : Fin 2) * 128 + 1 * k.val = k.val; omega
  have r3 : ∀ k : Fin 128, iblk2 V c 3 t (ix2 k q) = V c main_v51 (ix2 k q) := fun k => by
    show V c main_v51 (((cfg2.win 3).blk t).view.emb (ix2 k q)) = V c main_v51 (ix2 k q)
    refine congrArg (V c main_v51) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have r4 : iblk2 V c 4 t (ix2 (0 : Fin 1) q) = V c main_v54 (ix2 (0 : Fin 1) q) := by
    show V c main_v54 (((cfg2.win 4).blk t).view.emb (ix2 (0 : Fin 1) q)) = V c main_v54 (ix2 (0 : Fin 1) q)
    refine congrArg (V c main_v54) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  have r5 : ∀ k : Fin 128, iblk2 V c 5 t (ix2 k q) = V c main_v52 (ix2 k q) := fun k => by
    show V c main_v52 (((cfg2.win 5).blk t).view.emb (ix2 k q)) = V c main_v52 (ix2 k q)
    refine congrArg (V c main_v52) (funext fun a => Fin.ext ?_)
    match a with
    | ⟨0, _⟩ => show win2_5.index t (0 : Fin 2) * 128 + 1 * k.val = k.val; omega
    | ⟨1, _⟩ => show win2_5.index t (1 : Fin 2) * 128 + 1 * q.val = q.val; omega
  have e6 : ((cfg2.win 6).blk t).view.emb (ix2 p q) = ix2 P q := by
    funext a; apply Fin.ext
    match a with
    | ⟨0, _⟩ => show win2_6.index t (0 : Fin 2) * 2000 + 1 * p.val = t.val * 2000 + p.val; omega
    | ⟨1, _⟩ => show win2_6.index t (1 : Fin 2) * 128 + 1 * q.val = q.val; omega
  show _ = layer2 V c (((cfg2.win 6).blk t).view.emb (ix2 p q))
  rw [e6]
  show _ = kLayer false (V c main_v50) (V c main_v12) (V c main_v39) (V c main_v51) (V c main_v54) (V c main_v52) (ix2 P q)
  rw [kLayer_apply]
  simp only [r0, r1, r2, r3, r4, r5]

/-- An index of the output array is in point `t`'s block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v55).slice (win2_6.rect t)).set ↔ _
  rw [View.set_slice_whole, Rect.mem_set_unit]
  exact Iff.rfl

/-- Every row of the output is in some point's block: row `r` in the block of point `r / 2000`. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  let t : Fin cfg2.N := ⟨(i 0).val / 2000, by rw [show cfg2.N = 25 from N_2]; omega⟩
  obtain ⟨e00, e01, e10, e11, e20, e21, e30, e31, e40, e41, e50, e51, e60, e61⟩ := idx_facts2 t
  have htv : t.val = (i 0).val / 2000 := rfl
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- THE OUTPUT ARRAY after the region: the layer of the six input arrays as the region found them. -/
theorem arr2 (c : Dev nD) : (dat2 V c).arrAt 6 cfg2.N = layer2 V c :=
  (dat2 V c).arrAt_eq_of_cover 6 (layer2 V c) (fun t _ => flushed2_eq V c t) (cover2)

end AtContents

end Cert.KernelIdeal.Net

end
-- ==== Proof.LibRegionOp.lean ====
/-
  General facts about a kernel region read as ONE host operation.

  A region's run leaves its arrays at what the write-backs make of them and every other buffer as it was. When
  the region has one output array, whose final contents are a function of the entry contents of the input
  arrays, and its input arrays end as entered, this is exactly what a single host operation computing that
  function into the output array leaves: `withArrays_eq_result`. A run of host operations interleaved with
  regions is then one fold of operations, and a buffer's contents after it are read operation by operation.

  Also: the value an operation with a LITERAL family of five or of seven operands leaves in its result, with
  each operand's contents named at its own reference (the library states this for four operands), and operations of
  five and of seven operands with a curried function, whose result is the function of the operands' contents.
-/
import Idealize.ShloMosaic.Lib.StableHlo.Run
import Idealize.ShloMosaic.Lib.Pipeline.FrameSuffix
import Idealize.ShloMosaic.Lib.Pipeline.Value

noncomputable section

namespace Cert.Lib.RegionOp

open Idealize.ShloMosaic Idealize.ShloMosaic.TcCoe

variable {nD : Nat} {τ : Topo} {sig : RefSig} {Val : EltTy → Type}

/-- The contents a region leaves — its arrays at `A`, every other buffer at `V` — are what an operation `op`
    writing only the output array leaves of `V`, when the output array ends at the operation's value and every
    other array of the region ends as entered. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ)))
    (op : HloOp τ sig Val) (wo : Fin W)
    (hw : op.writes = {Proc.devRef .tc (Pipeline.arrRef win wo)})
    (hout : A wo = op.result V (Proc.devRef .tc (Pipeline.arrRef win wo)))
    (hin : ∀ w, w ≠ wo → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = wo
    · subst hwo; exact hout
    · rw [hin w hwo, op.result_of_not_mem V (by
        rw [hw, Finset.mem_singleton]; exact fun e => hwo (hinj (Proc.devRef_injective _ e)))]
  · unfold Pipeline.withArrays
    rw [dif_neg h, op.result_of_not_mem V (by
      rw [hw, Finset.mem_singleton]; exact fun e => h ⟨wo, e.symm⟩)]

section Families

variable {x0 x1 x2 x3 x4 x5 x6 y : Ref sig .tc}

/-- The result of an operation on a literal family of five operands, each operand's contents at its own reference. -/
theorem nary5_result'
    (f : ((k : Fin 5) → ((![x0, x1, x2, x3, x4] : Fin 5 → Ref sig .tc) k).ty.Contents Val) → y.ty.Contents Val) (hxs hy)
    (F : Valuation τ sig Val) :
    (StableHlo.nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [StableHlo.nary_result']; congr 1; funext k; fin_cases k <;> rfl

/-- The result of an operation on a literal family of seven operands, each operand's contents at its own reference. -/
theorem nary7_result'
    (f : ((k : Fin 7) → ((![x0, x1, x2, x3, x4, x5, x6] : Fin 7 → Ref sig .tc) k).ty.Contents Val) → y.ty.Contents Val) (hxs hy)
    (F : Valuation τ sig Val) :
    (StableHlo.nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [StableHlo.nary_result']; congr 1; funext k; fin_cases k <;> rfl

end Families

section Curried

/-- An operation of 5 operands into `y`, its function curried: `y` takes `G` of the operands' contents. -/
def op5 (x0 x1 x2 x3 x4 y : Ref sig .tc) (G : x0.ty.Contents Val → x1.ty.Contents Val → x2.ty.Contents Val → x3.ty.Contents Val → x4.ty.Contents Val → y.ty.Contents Val)
    (hxs : ∀ k, ((![x0, x1, x2, x3, x4] : Fin 5 → Ref sig .tc) k).space ≠ .host ∧ (((![x0, x1, x2, x3, x4] : Fin 5 → Ref sig .tc) k : Ref sig .tc) : DevRef τ sig).isScoped = false)
    (hy : y.space ≠ .host ∧ (y : DevRef τ sig).isScoped = false) : HloOp τ sig Val :=
  StableHlo.nary ![x0, x1, x2, x3, x4] y (fun u => G (u 0) (u 1) (u 2) (u 3) (u 4)) hxs hy

/-- What it leaves in its result: `G` of the operands' contents, each at its own reference. -/
theorem op5_result' (x0 x1 x2 x3 x4 y : Ref sig .tc) (G : x0.ty.Contents Val → x1.ty.Contents Val → x2.ty.Contents Val → x3.ty.Contents Val → x4.ty.Contents Val → y.ty.Contents Val) (hxs) (hy) (F : Valuation τ sig Val) :
    (op5 (τ := τ) x0 x1 x2 x3 x4 y G hxs hy).result F (no_index (Proc.devRef .tc y)) = G (F (Proc.devRef .tc x0)) (F (Proc.devRef .tc x1)) (F (Proc.devRef .tc x2)) (F (Proc.devRef .tc x3)) (F (Proc.devRef .tc x4)) := by
  unfold op5
  rw [StableHlo.nary_result']
  rfl

/-- Every other buffer it leaves alone. -/
theorem op5_result_ne' (x0 x1 x2 x3 x4 y : Ref sig .tc) (G : x0.ty.Contents Val → x1.ty.Contents Val → x2.ty.Contents Val → x3.ty.Contents Val → x4.ty.Contents Val → y.ty.Contents Val) (hxs) (hy) (F : Valuation τ sig Val)
    {r : Ref sig .tc} (h : r ≠ y) :
    (op5 (τ := τ) x0 x1 x2 x3 x4 y G hxs hy).result F (no_index (Proc.devRef .tc r)) = F (Proc.devRef .tc r) := by
  unfold op5
  exact StableHlo.nary_result_ne' _ _ _ _ _ h

/-- It writes its result buffer only. -/
theorem op5_writes (x0 x1 x2 x3 x4 y : Ref sig .tc) (G : x0.ty.Contents Val → x1.ty.Contents Val → x2.ty.Contents Val → x3.ty.Contents Val → x4.ty.Contents Val → y.ty.Contents Val) (hxs) (hy) :
    (op5 (τ := τ) x0 x1 x2 x3 x4 y G hxs hy).writes = {Proc.devRef .tc y} := rfl

/-- An operation of 7 operands into `y`, its function curried: `y` takes `G` of the operands' contents. -/
def op7 (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val)
    (hxs : ∀ k, ((![x0, x1, x2, x3, x4, x5, x6] : Fin 7 → Ref sig .tc) k).space ≠ .host ∧ (((![x0, x1, x2, x3, x4, x5, x6] : Fin 7 → Ref sig .tc) k : Ref sig .tc) : DevRef τ sig).isScoped = false)
    (hy : y.space ≠ .host ∧ (y : DevRef τ sig).isScoped = false) : HloOp τ sig Val :=
  StableHlo.nary ![x0, x1, x2, x3, x4, x5, x6] y (fun u => G (u 0) (u 1) (u 2) (u 3) (u 4) (u 5) (u 6)) hxs hy

/-- What it leaves in its result: `G` of the operands' contents, each at its own reference. -/
theorem op7_result' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val) :
    (op7 (τ := τ) x0 x1 x2 x3 x4 x5 x6 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) (F (Proc.devRef .tc x6)) := by
  unfold op7
  rw [StableHlo.nary_result']
  rfl

/-- Every other buffer it leaves alone. -/
theorem op7_result_ne' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val)
    {r : Ref sig .tc} (h : r ≠ y) :
    (op7 (τ := τ) x0 x1 x2 x3 x4 x5 x6 y G hxs hy).result F (no_index (Proc.devRef .tc r)) = F (Proc.devRef .tc r) := by
  unfold op7
  exact StableHlo.nary_result_ne' _ _ _ _ _ h

/-- It writes its result buffer only. -/
theorem op7_writes (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) :
    (op7 (τ := τ) x0 x1 x2 x3 x4 x5 x6 y G hxs hy).writes = {Proc.devRef .tc y} := rfl

end Curried

end Cert.Lib.RegionOp

end
-- ==== Proof.LibRegionOp6.lean ====
/-
  An operation of six operands with a curried function.

  The result buffer takes a function `G` of the six operands' contents, each read at its own reference, and every
  other buffer is left alone: the six-operand companion of the five- and seven-operand forms.
-/
import Idealize.ShloMosaic.Lib.StableHlo.Run

noncomputable section

namespace Cert.Lib.RegionOp

open Idealize.ShloMosaic Idealize.ShloMosaic.TcCoe

variable {τ : Topo} {sig : RefSig} {Val : EltTy → Type}

/-- An operation of 6 operands into `y`, its function curried: `y` takes `G` of the operands' contents. -/
def op6 (x0 x1 x2 x3 x4 x5 y : Ref sig .tc) (G : x0.ty.Contents Val → x1.ty.Contents Val → x2.ty.Contents Val → x3.ty.Contents Val → x4.ty.Contents Val → x5.ty.Contents Val → y.ty.Contents Val)
    (hxs : ∀ k, ((![x0, x1, x2, x3, x4, x5] : Fin 6 → Ref sig .tc) k).space ≠ .host ∧ (((![x0, x1, x2, x3, x4, x5] : Fin 6 → Ref sig .tc) k : Ref sig .tc) : DevRef τ sig).isScoped = false)
    (hy : y.space ≠ .host ∧ (y : DevRef τ sig).isScoped = false) : HloOp τ sig Val :=
  StableHlo.nary ![x0, x1, x2, x3, x4, x5] y (fun u => G (u 0) (u 1) (u 2) (u 3) (u 4) (u 5)) hxs hy

/-- What it leaves in its result: `G` of the operands' contents, each at its own reference. -/
theorem op6_result' (x0 x1 x2 x3 x4 x5 y : Ref sig .tc) (G : x0.ty.Contents Val → x1.ty.Contents Val → x2.ty.Contents Val → x3.ty.Contents Val → x4.ty.Contents Val → x5.ty.Contents Val → y.ty.Contents Val) (hxs) (hy) (F : Valuation τ sig Val) :
    (op6 (τ := τ) x0 x1 x2 x3 x4 x5 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) := by
  unfold op6
  rw [StableHlo.nary_result']
  rfl

/-- Every other buffer it leaves alone. -/
theorem op6_result_ne' (x0 x1 x2 x3 x4 x5 y : Ref sig .tc) (G : x0.ty.Contents Val → x1.ty.Contents Val → x2.ty.Contents Val → x3.ty.Contents Val → x4.ty.Contents Val → x5.ty.Contents Val → y.ty.Contents Val) (hxs) (hy) (F : Valuation τ sig Val)
    {r : Ref sig .tc} (h : r ≠ y) :
    (op6 (τ := τ) x0 x1 x2 x3 x4 x5 y G hxs hy).result F (no_index (Proc.devRef .tc r)) = F (Proc.devRef .tc r) := by
  unfold op6
  exact StableHlo.nary_result_ne' _ _ _ _ _ h

/-- It writes its result buffer only. -/
theorem op6_writes (x0 x1 x2 x3 x4 x5 y : Ref sig .tc) (G : x0.ty.Contents Val → x1.ty.Contents Val → x2.ty.Contents Val → x3.ty.Contents Val → x4.ty.Contents Val → x5.ty.Contents Val → y.ty.Contents Val) (hxs) (hy) :
    (op6 (τ := τ) x0 x1 x2 x3 x4 x5 y G hxs hy).writes = {Proc.devRef .tc y} := rfl

end Cert.Lib.RegionOp

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.KFold.lean ====
/-
  The idealized kernel's result as one function of its arguments.

  A region leaves its output array at the layer of its six input arrays (as the region found them) and every other
  buffer as it was: exactly what ONE host operation computing that layer into the output array leaves. So the
  program's final buffer contents are a single fold of host operations over the launch memory, and the result
  buffer is read back operation by operation:

      result = columns 0 … 46 of  layer₃(layer₂(layer₁(x))),

  where every layer takes the neighbour sums of its input (`sumK`: gather along the edges' sources, scatter-add at
  their destinations), the reciprocal degrees (`invK`, computed once) and its weights and bias; the last layer's
  weights and bias are padded with zero columns from 47 to 128.
-/
import proofs.«122430_j58506044506346_2_alg».proof.Proof.Region0
import proofs.«122430_j58506044506346_2_alg».proof.Proof.Region1
import proofs.«122430_j58506044506346_2_alg».proof.Proof.Region2
import proofs.«122430_j58506044506346_2_alg».proof.Proof.LibRegionOp
import proofs.«122430_j58506044506346_2_alg».proof.Proof.LibRegionOp6
import proofs.«122430_j58506044506346_2_alg».proof.Proof.LibAfter
import Idealize.ShloMosaic.Lib.StableHlo.Run

set_option maxRecDepth 16384

noncomputable section

namespace Cert.KernelIdeal.Net

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net.Spec Cert.Lib.RegionOp

/-- The contents of a buffer of shape `s` and element type `e` at the ideal values. -/
abbrev BT (s : Shape) (e : EltTy) : Type := (⟨s, e⟩ : BufTy).Contents (Elt Ideal)

/-! ## The pieces of the network -/

section Generic

variable {F : FTy → Type} [FloatOps F]

/-- The edges' sources: row 0 of the edge list. -/
def edgeSrc (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- The edges' destinations: row 1 of the edge list. -/
def edgeDst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000
/-- The sources as a column of row indices, a negative one counted from the end. -/
def srcCol (e : (⟨S2x800000, .i32⟩ : BufTy).Contents (Elt F)) : (⟨S800000x1, .i32⟩ : BufTy).Contents (Elt F) :=
  broadcastInDim S800000x1 ![0] bcast_S800000_S800000x1_0
    (select (cmpi .slt (edgeSrc (F := F) e) (broadcastInDim S800000 ![] bcast_S_S800000 (constantI S_ 32 0#32)))
      (addi (edgeSrc (F := F) e) (broadcastInDim S800000 ![] bcast_S_S800000 (constantI S_ 32 50000#32))) (edgeSrc (F := F) e))
/-- The destinations as a column of row indices. -/
def dstCol (e : (⟨S2x800000, .i32⟩ : BufTy).Contents (Elt F)) : (⟨S800000x1, .i32⟩ : BufTy).Contents (Elt F) :=
  broadcastInDim S800000x1 ![0] bcast_S800000_S800000x1_0 (edgeDst (F := F) e)
/-- The per-node sums of the neighbours' features. -/
def sumK (h : (⟨S50000x128, .bf16⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol (F := F) e)
    (extf .f32 (Host.gather gather_S50000x128_S800000x1_S800000x128_1_0_n_n_0_1_1128 h (srcCol (F := F) e)) bitsLt_bf16_f32)
/-- The per-node divisor: the number of arriving edges, or one. -/
def degK (e : (⟨S2x800000, .i32⟩ : BufTy).Contents (Elt F)) : (⟨S50000, .f32⟩ : BufTy).Contents (Elt F) :=
  maximumf (Host.scatterAdd scatter_S50000_S800000x1_S800000_n_0_0_1
      (broadcastInDim S50000 ![] bcast_S_S50000 (constant S_ .f32 0x00000000#32)) (dstCol (F := F) e)
      (broadcastInDim S800000 ![] bcast_S_S800000 (constant S_ .f32 0x3F800000#32)))
    (broadcastInDim S50000 ![] bcast_S_S50000 (constant S_ .f32 0x3F800000#32))
/-- Its reciprocal, as a column. -/
def invK (e : (⟨S2x800000, .i32⟩ : BufTy).Contents (Elt F)) : (⟨S50000x1, .f32⟩ : BufTy).Contents (Elt F) :=
  shapeCast S50000x1 (Host.divf (broadcastInDim S50000 ![] bcast_S_S50000 (constant S_ .f32 0x3F800000#32)) (degK (F := F) e))
    shapeCasts_S50000_S50000x1
/-- The padding value: the integer zero made a float. -/
def padZero : (⟨S_, .f32⟩ : BufTy).Contents (Elt F) := sitofp .f32 (constantI S_ 32 0#32)
/-- The node features in the narrower float format. -/
def narrow (x : (⟨S50000x128, .f32⟩ : BufTy).Contents (Elt F)) : (⟨S50000x128, .bf16⟩ : BufTy).Contents (Elt F) :=
  truncf .bf16 x bitsLt_bf16_f32

end Generic

section Net

variable (x0 : BT S50000x128 .f32) (e : BT S2x800000 .i32)
  (x3 : BT S128x128 .f32) (x4 : BT S128 .f32) (x5 x6 : BT S128x128 .f32) (x7 : BT S128 .f32) (x8 : BT S128x128 .f32)
  (x9 : BT S128x47 .f32) (x10 : BT S47 .f32) (x11 : BT S128x47 .f32)

/-- The first layer's output. -/
def h1K : BT S50000x128 .bf16 :=
  kLayer true (sumK (F := Ideal) (narrow (F := Ideal) x0) e) (invK (F := Ideal) e) (narrow (F := Ideal) x0) x3
    (shapeCast S1x128 x4 shapeCasts_S128_S1x128) x5
/-- The second layer's output. -/
def h2K : BT S50000x128 .bf16 :=
  kLayer true (sumK (F := Ideal) (h1K x0 e x3 x4 x5) e) (invK (F := Ideal) e) (h1K x0 e x3 x4 x5) x6
    (shapeCast S1x128 x7 shapeCasts_S128_S1x128) x8
/-- The third layer's output, 128 columns wide: its weights and bias padded with zero columns. -/
def h3K : BT S50000x128 .f32 :=
  kLayer false (sumK (F := Ideal) (h2K x0 e x3 x4 x5 x6 x7 x8) e) (invK (F := Ideal) e) (h2K x0 e x3 x4 x5 x6 x7 x8)
    (pad S128x128 ![0, 0] ![0, 81] ![0, 0] x9 (padZero (F := Ideal)) pads_S128x47_S128x128_000_0810 h_S_)
    (shapeCast S1x128 (pad S128 ![0] ![81] ![0] x10 (padZero (F := Ideal)) pads_S47_S128_0810 h_S_) shapeCasts_S128_S1x128)
    (pad S128x128 ![0, 0] ![0, 81] ![0, 0] x11 (padZero (F := Ideal)) pads_S128x47_S128x128_000_0810 h_S_)
/-- The network's result: the first 47 columns. -/
def netK : BT S50000x47 .f32 :=
  extractStridedSlice S50000x47 ![0, 0] (h3K x0 e x3 x4 x5 x6 x7 x8 x9 x10 x11) slices_S50000x128_S50000x47_0_0

end Net

/-! ## The regions as host operations -/

/-- Region 0: the first layer into its output array. -/
def op0 : HloOp τ sig (Elt Ideal) :=
  op6 main_v24 main_v12 main_v13 main_arg3 main_v25 main_arg5 main_v26
    (fun a0 a1 a2 a3 a4 a5 => kLayer true a0 a1 a2 a3 a4 a5) (by decide) (by decide)
/-- Region 1: the second layer. -/
def op1 : HloOp τ sig (Elt Ideal) :=
  op6 main_v37 main_v12 main_v26 main_arg6 main_v38 main_arg8 main_v39
    (fun a0 a1 a2 a3 a4 a5 => kLayer true a0 a1 a2 a3 a4 a5) (by decide) (by decide)
/-- Region 2: the third layer. -/
def op2 : HloOp τ sig (Elt Ideal) :=
  op6 main_v50 main_v12 main_v39 main_v51 main_v54 main_v52 main_v55
    (fun a0 a1 a2 a3 a4 a5 => kLayer false a0 a1 a2 a3 a4 a5) (by decide) (by decide)

variable (m : (ℓ : Loc nD τ sig) → Buf (Elt Ideal) ℓ) (ρ : Dev nD → PrngReg)

/-- Region 0 leaves what its operation leaves. -/
theorem W2_eq (c : Dev nD) : W2 m ρ c = op0.result (W1 m ρ c) := by
  unfold W2
  refine withArrays_eq_result spec0 launch0.win.arr_inj c (W1 m ρ c) _ op0 6 rfl ?_ ?_
  · show (dat0 (V1 m ρ) c).arrAt 6 cfg0.N = op0.result (W1 m ρ c) (Proc.devRef .tc main_v26)
    rw [arr0]
    unfold op0
    rw [op6_result']
  · intro w hw
    have hio : (cfg0.win w).isOut = false := by
      fin_cases w <;> first | rfl | exact absurd rfl hw
    exact ((dat0 (V1 m ρ) c).arrAt_in w hio cfg0.N).trans (A_eq0 (V1 m ρ) c w)

/-- Region 1 leaves what its operation leaves. -/
theorem W4_eq (c : Dev nD) : W4 m ρ c = op1.result (W3 m ρ c) := by
  unfold W4
  refine withArrays_eq_result spec1 launch1.win.arr_inj c (W3 m ρ c) _ op1 6 rfl ?_ ?_
  · show (dat1 (V3 m ρ) c).arrAt 6 cfg1.N = op1.result (W3 m ρ c) (Proc.devRef .tc main_v39)
    rw [arr1]
    unfold op1
    rw [op6_result']
  · intro w hw
    have hio : (cfg1.win w).isOut = false := by
      fin_cases w <;> first | rfl | exact absurd rfl hw
    exact ((dat1 (V3 m ρ) c).arrAt_in w hio cfg1.N).trans (A_eq1 (V3 m ρ) c w)

/-- Region 2 leaves what its operation leaves. -/
theorem W12_eq (c : Dev nD) : W12 m ρ c = op2.result (W11 m ρ c) := by
  unfold W12
  refine withArrays_eq_result spec2 launch2.win.arr_inj c (W11 m ρ c) _ op2 6 rfl ?_ ?_
  · show (dat2 (V11 m ρ) c).arrAt 6 cfg2.N = op2.result (W11 m ρ c) (Proc.devRef .tc main_v55)
    rw [arr2]
    unfold op2
    rw [op6_result']
  · intro w hw
    have hio : (cfg2.win w).isOut = false := by
      fin_cases w <;> first | rfl | exact absurd rfl hw
    exact ((dat2 (V11 m ρ) c).arrAt_in w hio cfg2.N).trans (A_eq2 (V11 m ρ) c w)

end Cert.KernelIdeal.Net

end
-- ==== Proof.KResult.lean ====
/-
  The result buffer after the run.

  The final contents of the result buffer, read back through the whole fold of host operations and regions to the
  launch memory, are the network `netK` of the argument arrays.
-/
import proofs.«122430_j58506044506346_2_alg».proof.Proof.KFold

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.Net.Spec Cert.Lib.RegionOp

variable (m : (ℓ : Loc nD τ sig) → Buf (Elt Ideal) ℓ) (ρ : Dev nD → PrngReg)

set_option maxHeartbeats 4000000 in
/-- THE RESULT: after the run the result buffer holds the network of the argument arrays. -/
theorem result_eq (c : Dev nD) :
    W13 m ρ c (Proc.devRef .tc main_v56) = netK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  simp only [W13, W11, W10, W9, W8, W7, W6, W5, W3, W1, W12_eq, W4_eq, W2_eq]
  simp (disch := decide) only [hostOps0, hostOps1, hostOps2, hostOps2_1, hostOps2_2, hostOps2_3, hostOps2_4, hostOps2_5,
    hostOps2_6, hostOps3, op0, op1, op2, StableHlo.after_cons, StableHlo.after_nil,
    StableHlo.nullary_result', StableHlo.unary_result', StableHlo.binary_result', StableHlo.ternary_result',
    StableHlo.reshape_result',
    StableHlo.nullary_result_ne', StableHlo.unary_result_ne', StableHlo.binary_result_ne', StableHlo.ternary_result_ne',
    StableHlo.reshape_result_ne', op6_result', op6_result_ne']
  rfl

end Cert.KernelIdeal.Net

end
-- ==== Proof.RefLayers.lean ====
/-
  The reference program, layer by layer.

  Each of the reference's three layers is, index by index, `Spec.rLayer` of: the per-node sums of the neighbours'
  features (a gather along the edges' sources followed by a scatter-add at their destinations, kept here as ONE
  function `sumNbr` of the features and the edge list — it is never opened), the per-node divisor `max(deg, 1)`
  (`degMax`, a function of the edge list alone, the same in all three layers), the layer's input features and its
  weights and bias. The host's two matrix products are sums over the 128 features, the divisor is a vector repeated
  along the feature axis, the bias a vector repeated down the nodes, and the first two layers end with the maximum
  with zero.
-/
import proofs.«122430_j58506044506346_2_alg».proof.Proof.Gen.ReferenceIdeal.Read
import proofs.«122430_j58506044506346_2_alg».proof.Proof.LayerSpec
import proofs.«122430_j58506044506346_2_alg».proof.Proof.LibPlainDot
import Idealize.ShloMosaic.Lib.Pipeline.Value
import Idealize.ShloMosaic.Lib.ValueIdx

noncomputable section

open scoped BigOperators

namespace Cert.ReferenceIdeal.Net

open Idealize.ShloMosaic Idealize.ShloMosaic.TcCoe Idealize.ShloMosaic.ValueIdx
open Cert.ReferenceIdeal Cert.ReferenceIdeal.Gen Cert.ReferenceIdeal.Read Cert.Net.Spec

/-! ## The operations of a layer, as the program's text applies them -/

section Generic

variable {F : FTy → Type} [FloatOps F]

/-- The per-node sums of the neighbours' features: `h` gathered along the edges' sources, scatter-added at their
    destinations into zero. -/
def sumNbr (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1 (val_main_v11 (F := F)) (val_main_v12 (F := F) e)
    (Host.gather gather_S50000x128_S800000x1_S800000x128_1_0_n_n_0_1_1128 h (val_main_v9 (F := F) e))

/-- The per-node divisor: the number of edges arriving at the node, or one if none does. -/
def degMax (e : (⟨S2x800000, .i32⟩ : BufTy).Contents (Elt F)) : (⟨S50000, .f32⟩ : BufTy).Contents (Elt F) :=
  val_main_v19 (F := F) e

/-- A layer of 128 columns ending in the maximum with zero: the quotient by the divisor, the first product, the
    bias, the second product, the maximum. -/
def layerOps128 (S : (⟨S50000x128, .f32⟩ : BufTy).Contents (Elt F)) (dv : (⟨S50000, .f32⟩ : BufTy).Contents (Elt F))
    (h : (⟨S50000x128, .f32⟩ : BufTy).Contents (Elt F)) (Wl : (⟨S128x128, .f32⟩ : BufTy).Contents (Elt F))
    (bl : (⟨S128, .f32⟩ : BufTy).Contents (Elt F)) (Wr : (⟨S128x128, .f32⟩ : BufTy).Contents (Elt F)) :
    (⟨S50000x128, .f32⟩ : BufTy).Contents (Elt F) :=
  maximumf
    (addf
      (addf
        (Host.dotGeneral dot_S50000x128_S128x128_S50000x128_1_0_0_1_n_n none
          (Host.divf S (broadcastInDim S50000x128 ![0, 1] bcast_S50000x1_S50000x128_0_1
            (broadcastInDim S50000x1 ![0] bcast_S50000_S50000x1_0 dv))) Wl)
        (broadcastInDim S50000x128 ![0, 1] bcast_S1x128_S50000x128_0_1 (broadcastInDim S1x128 ![1] bcast_S128_S1x128_1 bl)))
      (Host.dotGeneral dot_S50000x128_S128x128_S50000x128_1_0_0_1_n_n none h Wr))
    (broadcastInDim S50000x128 ![] bcast_S_S50000x128 (constant S_ .f32 0x00000000#32))

/-- The last layer, of 47 columns: the same without the maximum. -/
def layerOps47 (S : (⟨S50000x128, .f32⟩ : BufTy).Contents (Elt F)) (dv : (⟨S50000, .f32⟩ : BufTy).Contents (Elt F))
    (h : (⟨S50000x128, .f32⟩ : BufTy).Contents (Elt F)) (Wl : (⟨S128x47, .f32⟩ : BufTy).Contents (Elt F))
    (bl : (⟨S47, .f32⟩ : BufTy).Contents (Elt F)) (Wr : (⟨S128x47, .f32⟩ : BufTy).Contents (Elt F)) :
    (⟨S50000x47, .f32⟩ : BufTy).Contents (Elt F) :=
  addf
    (addf
      (Host.dotGeneral dot_S50000x128_S128x47_S50000x47_1_0_0_1_n_n none
        (Host.divf S (broadcastInDim S50000x128 ![0, 1] bcast_S50000x1_S50000x128_0_1
          (broadcastInDim S50000x1 ![0] bcast_S50000_S50000x1_0 dv))) Wl)
      (broadcastInDim S50000x47 ![0, 1] bcast_S1x47_S50000x47_0_1 (broadcastInDim S1x47 ![1] bcast_S47_S1x47_1 bl)))
    (Host.dotGeneral dot_S50000x128_S128x47_S50000x47_1_0_0_1_n_n none h Wr)

end Generic

/-! ## Small facts -/

/-- The divisor is never zero: it is at least one. -/
theorem degMax_ne_zero (e : (⟨S2x800000, .i32⟩ : BufTy).Contents (Elt Ideal)) (n : Fin 50000) :
    degMax (F := Ideal) e (ix1 n) ≠ 0 := by
  unfold degMax
  rw [val_main_v19_apply, val_main_v18_apply, val_main_cst_3_apply]
  generalize val_main_v17 (F := Ideal) e (ix1 n) = y
  rw [Ideal.maximumf_def, Ideal.ofBits_def, Ideal.ofBits_one_f32]
  exact max_one_ne_zero y

theorem dot128_plain : dot_S50000x128_S128x128_S50000x128_1_0_0_1_n_n = DotDims.plain 50000 128 128 := rfl
theorem dot47_plain : dot_S50000x128_S128x47_S50000x47_1_0_0_1_n_n = DotDims.plain 50000 128 47 := rfl

/-- The host's product at entry `(n, q)`: the sum over the 128 features. -/
theorem hostDot_apply {C : Nat} {φ₁ φ₂ : FTy} (l : FVec Ideal ⟨2, ![50000, 128]⟩ φ₁) (r : FVec Ideal ⟨2, ![128, C]⟩ φ₂)
    (n : Fin 50000) (q : Fin C) :
    Host.dotGeneral (DotDims.plain 50000 128 C) none l r (ix2 n q) = ∑ k : Fin 128, l (ix2 n k) * r (ix2 k q) :=
  Cert.Lib.PlainDot.dotGeneral_apply none .single l r n q

/-- The host's quotient, entry by entry. -/
theorem hostDivf_apply {s : Shape} (a b : FVec Ideal s .f32) (i : s.Idx) : Host.divf a b i = Ideal.div (a i) (b i) := rfl

theorem act_true (x : EReal) : act true x = max x (Ideal.ofBits .f32 0x00000000#32) := rfl
theorem act_false (x : EReal) : act false x = x := rfl

/-- The divisor vector, made a column and repeated along the features, at `(n, k)`: the divisor of node `n`. -/
theorem deg_bcast_apply {α : Type} (dv : S50000.Idx → α) (n : Fin 50000) (k : Fin 128) :
    broadcastInDim S50000x128 ![0, 1] bcast_S50000x1_S50000x128_0_1
      (broadcastInDim S50000x1 ![0] bcast_S50000_S50000x1_0 dv) (ix2 n k) = dv (ix1 n) := by
  rw [broadcastInDim_apply _ bcast_S50000x1_S50000x128_0_1 _ (ix2 n k) (ix2 n (0 : Fin 1)) (fun a => match a with
      | ⟨0, _⟩ => by show n.val = if (50000 : Nat) = 1 then 0 else n.val; rw [if_neg (by decide)]
      | ⟨1, _⟩ => by show 0 = if (1 : Nat) = 1 then 0 else k.val; rw [if_pos rfl]),
    broadcastInDim_apply _ bcast_S50000_S50000x1_0 _ (ix2 n (0 : Fin 1)) (ix1 n) (fun a => match a with
      | ⟨0, _⟩ => by show n.val = if (50000 : Nat) = 1 then 0 else n.val; rw [if_neg (by decide)])]

/-- A bias vector of 128 entries, made a row and repeated down the nodes, at `(n, q)`: the bias at `q`. -/
theorem bias128_apply (b : S128.Idx → EReal) (n : Fin 50000) (q : Fin 128) :
    broadcastInDim S50000x128 ![0, 1] bcast_S1x128_S50000x128_0_1
      (broadcastInDim S1x128 ![1] bcast_S128_S1x128_1 b) (ix2 n q) = b (ix1 q) := by
  rw [broadcastInDim_apply _ bcast_S1x128_S50000x128_0_1 _ (ix2 n q) (ix2 (0 : Fin 1) q) (fun a => match a with
      | ⟨0, _⟩ => by show 0 = if (1 : Nat) = 1 then 0 else n.val; rw [if_pos rfl]
      | ⟨1, _⟩ => by show q.val = if (128 : Nat) = 1 then 0 else q.val; rw [if_neg (by decide)]),
    broadcastInDim_apply _ bcast_S128_S1x128_1 _ (ix2 (0 : Fin 1) q) (ix1 q) (fun a => match a with
      | ⟨0, _⟩ => by show q.val = if (128 : Nat) = 1 then 0 else q.val; rw [if_neg (by decide)])]

/-- The same for the last layer's 47 entries. -/
theorem bias47_apply (b : S47.Idx → EReal) (n : Fin 50000) (q : Fin 47) :
    broadcastInDim S50000x47 ![0, 1] bcast_S1x47_S50000x47_0_1
      (broadcastInDim S1x47 ![1] bcast_S47_S1x47_1 b) (ix2 n q) = b (ix1 q) := by
  rw [broadcastInDim_apply _ bcast_S1x47_S50000x47_0_1 _ (ix2 n q) (ix2 (0 : Fin 1) q) (fun a => match a with
      | ⟨0, _⟩ => by show 0 = if (1 : Nat) = 1 then 0 else n.val; rw [if_pos rfl]
      | ⟨1, _⟩ => by show q.val = if (47 : Nat) = 1 then 0 else q.val; rw [if_neg (by decide)]),
    broadcastInDim_apply _ bcast_S47_S1x47_1 _ (ix2 (0 : Fin 1) q) (ix1 q) (fun a => match a with
      | ⟨0, _⟩ => by show q.val = if (47 : Nat) = 1 then 0 else q.val; rw [if_neg (by decide)])]

/-- The scalar zero repeated over the whole array reads its float word everywhere. -/
theorem zero128_apply (n : Fin 50000) (q : Fin 128) :
    broadcastInDim S50000x128 ![] bcast_S_S50000x128 (constant (F := Ideal) S_ .f32 0x00000000#32) (ix2 n q)
      = Ideal.ofBits .f32 0x00000000#32 :=
  broadcastInDim_apply _ bcast_S_S50000x128 _ (ix2 n q) (fun a => a.elim0) (fun a => a.elim0)

/-! ## The layers read at an index -/

theorem refLayer128 (S : (⟨S50000x128, .f32⟩ : BufTy).Contents (Elt Ideal)) (dv : (⟨S50000, .f32⟩ : BufTy).Contents (Elt Ideal))
    (h : (⟨S50000x128, .f32⟩ : BufTy).Contents (Elt Ideal)) (Wl : (⟨S128x128, .f32⟩ : BufTy).Contents (Elt Ideal))
    (bl : (⟨S128, .f32⟩ : BufTy).Contents (Elt Ideal)) (Wr : (⟨S128x128, .f32⟩ : BufTy).Contents (Elt Ideal)) :
    layerOps128 (F := Ideal) S dv h Wl bl Wr = rLayer true S dv h Wl bl Wr := by
  funext i
  obtain ⟨n, q, rfl⟩ : ∃ (n : Fin 50000) (q : Fin 128), i = ix2 n q := ⟨i 0, i 1, eq_ix2 i⟩
  unfold layerOps128
  rw [rLayer_apply, act_true, maximumf_apply, addf_apply, addf_apply, dot128_plain,
    hostDot_apply, hostDot_apply, bias128_apply, zero128_apply]
  have hd : ∀ k : Fin 128, broadcastInDim S50000x128 ![0, 1] bcast_S50000x1_S50000x128_0_1
      (broadcastInDim S50000x1 ![0] bcast_S50000_S50000x1_0 dv) (ix2 n k) = dv (ix1 n) := fun k => deg_bcast_apply dv n k
  simp only [hostDivf_apply, hd]

theorem refLayer47 (S : (⟨S50000x128, .f32⟩ : BufTy).Contents (Elt Ideal)) (dv : (⟨S50000, .f32⟩ : BufTy).Contents (Elt Ideal))
    (h : (⟨S50000x128, .f32⟩ : BufTy).Contents (Elt Ideal)) (Wl : (⟨S128x47, .f32⟩ : BufTy).Contents (Elt Ideal))
    (bl : (⟨S47, .f32⟩ : BufTy).Contents (Elt Ideal)) (Wr : (⟨S128x47, .f32⟩ : BufTy).Contents (Elt Ideal)) :
    layerOps47 (F := Ideal) S dv h Wl bl Wr = rLayer false S dv h Wl bl Wr := by
  funext i
  obtain ⟨n, q, rfl⟩ : ∃ (n : Fin 50000) (q : Fin 47), i = ix2 n q := ⟨i 0, i 1, eq_ix2 i⟩
  unfold layerOps47
  rw [rLayer_apply, act_false, addf_apply, addf_apply, dot47_plain,
    hostDot_apply, hostDot_apply, bias47_apply]
  have hd : ∀ k : Fin 128, broadcastInDim S50000x128 ![0, 1] bcast_S50000x1_S50000x128_0_1
      (broadcastInDim S50000x1 ![0] bcast_S50000_S50000x1_0 dv) (ix2 n k) = dv (ix1 n) := fun k => deg_bcast_apply dv n k
  simp only [hostDivf_apply, hd]

end Cert.ReferenceIdeal.Net

end
-- ==== Proof.RefNet.lean ====
/-
  The reference program as three layers.

  The reference's result is the third layer of the second layer of the first layer of the node features, every
  layer with the same edge list: `g3`. Each layer's output is the generated stage of the program's text, read by
  the layer lemma; the neighbour sums of a later layer are `sumNbr` of the previous layer's output.
-/
import proofs.«122430_j58506044506346_2_alg».proof.Proof.RefLayers

noncomputable section

namespace Cert.ReferenceIdeal.Net

open Idealize.ShloMosaic Idealize.ShloMosaic.TcCoe Idealize.ShloMosaic.ValueIdx
open Cert.ReferenceIdeal Cert.ReferenceIdeal.Gen Cert.ReferenceIdeal.Read Cert.Net.Spec

variable (x0 : (⟨S50000x128, .f32⟩ : BufTy).Contents (Elt Ideal)) (x1 : (⟨S2x800000, .i32⟩ : BufTy).Contents (Elt Ideal))
  (x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128x47, .f32⟩ : BufTy).Contents (Elt Ideal))
  (x10 : (⟨S47, .f32⟩ : BufTy).Contents (Elt Ideal)) (x11 : (⟨S128x47, .f32⟩ : BufTy).Contents (Elt Ideal))

/-- The first layer's output. -/
def g1 : (⟨S50000x128, .f32⟩ : BufTy).Contents (Elt Ideal) := rLayer true (sumNbr (F := Ideal) x0 x1) (degMax (F := Ideal) x1) x0 x3 x4 x5
/-- The second layer's output. -/
def g2 : (⟨S50000x128, .f32⟩ : BufTy).Contents (Elt Ideal) :=
  rLayer true (sumNbr (F := Ideal) (g1 x0 x1 x3 x4 x5) x1) (degMax (F := Ideal) x1) (g1 x0 x1 x3 x4 x5) x6 x7 x8
/-- The network's output. -/
def g3 : (⟨S50000x47, .f32⟩ : BufTy).Contents (Elt Ideal) :=
  rLayer false (sumNbr (F := Ideal) (g2 x0 x1 x3 x4 x5 x6 x7 x8) x1) (degMax (F := Ideal) x1) (g2 x0 x1 x3 x4 x5 x6 x7 x8) x9 x10 x11

/-- The first layer's stage is the layer of the node features. -/
theorem layer1_eq : val_main_v29 (F := Ideal) x0 x1 x3 x4 x5 = g1 x0 x1 x3 x4 x5 :=
  refLayer128 (sumNbr (F := Ideal) x0 x1) (degMax (F := Ideal) x1) x0 x3 x4 x5

/-- The second layer's stage is the layer of the first layer's output. -/
theorem layer2_eq : val_main_v55 (F := Ideal) x0 x1 x3 x4 x5 x6 x7 x8 = g2 x0 x1 x3 x4 x5 x6 x7 x8 := by
  unfold g2
  rw [← layer1_eq]
  exact refLayer128 (sumNbr (F := Ideal) (val_main_v29 (F := Ideal) x0 x1 x3 x4 x5) x1) (degMax (F := Ideal) x1) (val_main_v29 (F := Ideal) x0 x1 x3 x4 x5) x6 x7 x8

/-- The program's result is the last layer of the second layer's output. -/
theorem layer3_eq : val_main_v80 (F := Ideal) x0 x1 x3 x4 x5 x6 x7 x8 x9 x10 x11 = g3 x0 x1 x3 x4 x5 x6 x7 x8 x9 x10 x11 := by
  unfold g3
  rw [← layer2_eq]
  exact refLayer47 (sumNbr (F := Ideal) (val_main_v55 (F := Ideal) x0 x1 x3 x4 x5 x6 x7 x8) x1) (degMax (F := Ideal) x1) (val_main_v55 (F := Ideal) x0 x1 x3 x4 x5 x6 x7 x8) x9 x10 x11

end Cert.ReferenceIdeal.Net

end
-- ==== Proof.Bridge.lean ====
/-
  The two networks are one function.

  Both programs apply the same gather and scatter-add along the same edge list, so the neighbour sums and the degree
  are the same arrays in both (`sumK_eq`, `degK_eq`: the operations agree term by term; a change of float format is
  the identity on the extended reals). The kernel's reciprocal column at node `n` is `1 / max(deg n, 1)`, and the
  divisor is at least one, hence not zero (`invK_apply`, `degMax_ne_zero`). A bias vector viewed as a row, a weight
  matrix padded with zero columns read at a column below 47, and the final slice of the first 47 columns are re-indexings.
  With these the layer law applies three times, each layer's input being the previous layer's output in both programs.
-/
import proofs.«122430_j58506044506346_2_alg».proof.Proof.KFold
import proofs.«122430_j58506044506346_2_alg».proof.Proof.RefNet
import Idealize.ShloMosaic.Lib.KernelVsHost
import Idealize.ShloMosaic.Lib.IdealHost

noncomputable section

namespace Cert.Net.Bridge

open Idealize.ShloMosaic Idealize.ShloMosaic.ValueIdx
open Cert.KernelIdeal Cert.KernelIdeal.Gen Cert.KernelIdeal.Net Cert.Net.Spec
open Cert.ReferenceIdeal.Net (sumNbr degMax degMax_ne_zero g1 g2 g3)

/-- The neighbour sums are the same array in both programs. -/
theorem sumK_eq (h : BT S50000x128 .bf16) (e : BT S2x800000 .i32) : sumK (F := Ideal) h e = sumNbr (F := Ideal) h e := rfl

/-- So is the divisor. -/
theorem degK_eq (e : BT S2x800000 .i32) : degK (F := Ideal) e = degMax (F := Ideal) e := rfl

/-- The node features in the narrower format are the node features. -/
theorem narrow_eq (x : BT S50000x128 .f32) : narrow (F := Ideal) x = x := rfl

/-- The scalar one repeated over the nodes reads one everywhere. -/
theorem ones_apply (n : Fin 50000) :
    broadcastInDim S50000 ![] bcast_S_S50000 (constant (F := Ideal) S_ .f32 0x3F800000#32) (ix1 n) = 1 := by
  rw [broadcastInDim_apply _ bcast_S_S50000 _ (ix1 n) (fun a => a.elim0) (fun a => a.elim0), constant_apply]
  exact Ideal.ofBits_one_f32

/-- The kernel's reciprocal column at node `n`: one over the node's divisor. -/
theorem invK_apply (e : BT S2x800000 .i32) (n : Fin 50000) :
    invK (F := Ideal) e (ix2 n (0 : Fin 1)) = Ideal.div 1 (degMax (F := Ideal) e (ix1 n)) := by
  unfold invK
  rw [shapeCast_apply _ shapeCasts_S50000_S50000x1 (ix2 n (0 : Fin 1)) (ix1 n) (by
    rw [Shape.rowMajor_val_one, Shape.rowMajor_val_two]; show n.val = n.val * 1 + 0; omega)]
  rw [ValueIdx.hostDivf_apply, degK_eq, ones_apply]

/-- A bias vector viewed as a `1 × 128` row, at lane `q`. -/
theorem biasRow_apply (b : BT S128 .f32) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_one, Shape.rowMajor_val_two]; show q.val = 0 * 128 + q.val; omega)

/-- A `128 × 47` weight matrix padded with columns up to 128, read at a column below 47: the matrix's entry. -/
theorem padW_apply (W : BT S128x47 .f32) {u : Shape} (v : u.Idx → EReal) (hp : S128x47.Pads ![0, 0] ![0, 81] ![0, 0] S128x128)
    (hu : 0 < u.numel) (k : Fin 128) (q : Fin 47) (q' : Fin 128) (hq : q'.val = q.val) :
    pad S128x128 ![0, 0] ![0, 81] ![0, 0] W v hp hu (ix2 k q') = W (ix2 k q) :=
  pad_apply_of_inside ![0, 0] ![0, 81] ![0, 0] W v hp hu (ix2 k q') (ix2 k q) (fun a => match a with
    | ⟨0, _⟩ => by show k.val = 0 + k.val * (0 + 1); omega
    | ⟨1, _⟩ => by show q'.val = 0 + q.val * (0 + 1); omega)

/-- A bias of 47 entries padded up to 128 and viewed as a row, read at a lane below 47: the bias entry. -/
theorem padB_apply (b : BT S47 .f32) {u : Shape} (v : u.Idx → EReal) (hp : S47.Pads ![0] ![81] ![0] S128)
    (hu : 0 < u.numel) (q : Fin 47) (q' : Fin 128) (hq : q'.val = q.val) :
    shapeCast S1x128 (pad S128 ![0] ![81] ![0] b v hp hu) shapeCasts_S128_S1x128 (ix2 (0 : Fin 1) q') = b (ix1 q) := by
  rw [biasRow_apply]
  exact pad_apply_of_inside ![0] ![81] ![0] b v hp hu (ix1 q') (ix1 q) (fun a => match a with
    | ⟨0, _⟩ => by show q'.val = 0 + q.val * (0 + 1); omega)

section Net

variable (x0 : BT S50000x128 .f32) (e : BT S2x800000 .i32)
  (x3 : BT S128x128 .f32) (x4 : BT S128 .f32) (x5 x6 : BT S128x128 .f32) (x7 : BT S128 .f32) (x8 : BT S128x128 .f32)
  (x9 : BT S128x47 .f32) (x10 : BT S47 .f32) (x11 : BT S128x47 .f32)

/-- The first layer's output is the same array in both programs. -/
theorem h1K_eq : h1K x0 e x3 x4 x5 = g1 x0 e x3 x4 x5 := by
  funext i
  obtain ⟨n, q, rfl⟩ : ∃ (n : Fin 50000) (q : Fin 128), i = ix2 n q := ⟨i 0, i 1, eq_ix2 i⟩
  unfold h1K g1
  rw [narrow_eq, sumK_eq]
  exact kLayer_eq_rLayer_at true (sumNbr (F := Ideal) x0 e) (invK (F := Ideal) e) x0 x3 _ x5 (degMax (F := Ideal) e) x3 x4 x5 n q q
    (degMax_ne_zero e n) (invK_apply e n) (fun _ => rfl) (fun _ => rfl) (biasRow_apply x4 q)

/-- So is the second layer's. -/
theorem h2K_eq : h2K x0 e x3 x4 x5 x6 x7 x8 = g2 x0 e x3 x4 x5 x6 x7 x8 := by
  funext i
  obtain ⟨n, q, rfl⟩ : ∃ (n : Fin 50000) (q : Fin 128), i = ix2 n q := ⟨i 0, i 1, eq_ix2 i⟩
  unfold h2K g2
  rw [h1K_eq, sumK_eq]
  exact kLayer_eq_rLayer_at true (sumNbr (F := Ideal) (g1 x0 e x3 x4 x5) e) (invK (F := Ideal) e) (g1 x0 e x3 x4 x5) x6 _ x8 (degMax (F := Ideal) e) x6 x7 x8 n q q
    (degMax_ne_zero e n) (invK_apply e n) (fun _ => rfl) (fun _ => rfl) (biasRow_apply x7 q)

/-- THE NETWORKS AGREE: the kernel's result is the reference's, index by index. -/
theorem netK_eq : netK x0 e x3 x4 x5 x6 x7 x8 x9 x10 x11 = g3 x0 e x3 x4 x5 x6 x7 x8 x9 x10 x11 := by
  funext i
  obtain ⟨n, q, rfl⟩ : ∃ (n : Fin 50000) (q : Fin 47), i = ix2 n q := ⟨i 0, i 1, eq_ix2 i⟩
  have hq47 : q.val < 47 := q.isLt
  let q' : Fin 128 := ⟨q.val, by omega⟩
  unfold netK
  rw [extractStridedSlice_apply _ _ slices_S50000x128_S50000x47_0_0 (ix2 n q) (ix2 n q') (fun a => match a with
    | ⟨0, _⟩ => by show n.val = 0 + n.val; omega
    | ⟨1, _⟩ => by show q.val = 0 + q.val; omega)]
  unfold h3K g3
  rw [h2K_eq, sumK_eq]
  exact kLayer_eq_rLayer_at false (sumNbr (F := Ideal) (g2 x0 e x3 x4 x5 x6 x7 x8) e) (invK (F := Ideal) e) (g2 x0 e x3 x4 x5 x6 x7 x8) _ _ _ (degMax (F := Ideal) e) x9 x10 x11 n q' q
    (degMax_ne_zero e n) (invK_apply e n) (fun k => padW_apply x9 _ _ _ k q q' rfl) (fun k => padW_apply x11 _ _ _ k q q' rfl)
    (padB_apply x10 _ _ _ q q' rfl)

end Net

end Cert.Net.Bridge

end
-- ==== Proof.lean ====
/-
  Three layers of mean-aggregating graph convolution: the tiled kernel against the plain reference.

  The network takes node features `x` (50000 nodes, 128 features), a list of 800000 edges and three pairs of weight
  matrices with a bias. A layer maps features `h` to

      mean(h) · Wl  +  b  +  h · Wr,        mean(h)(n, ·) = (sum of h over the edges arriving at n) / max(deg n, 1),

  followed, in the first two layers, by the maximum with zero; the last layer has 47 output columns.

  The kernel computes each layer's dense part in a tiled region over 25 blocks of 2000 nodes, multiplies by a
  reciprocal degree computed once, adds the two products before the bias, keeps intermediate features in a narrower
  float format, and pads the last layer's weights to 128 columns, slicing the result back to 47. At the ideal values a
  float format change is the identity, the product with `1 / d` is the quotient by `d` for every `d ≠ 0` (and
  `max(deg, 1) ≥ 1`), sums may be regrouped, and padding then slicing reads the original columns: the two programs
  compute the same extended reals, index by index. No finiteness of the inputs is used.

  The modules: `LayerSpec` (the layer in both arrangements and the law joining them), `Region0/1/2` (each region is
  the kernel's layer of its input arrays), `KFold` and `KResult` (the kernel's result as a composition of layers over
  the argument arrays), `RefLayers` and `RefNet` (the same for the reference), `Bridge` (the two compositions are one
  function), `KRun` (the kernel's run with its final memory read back).
-/
import proofs.«122430_j58506044506346_2_alg».proof.Defs
import proofs.«122430_j58506044506346_2_alg».proof.Proof.Gen.Kernel
import proofs.«122430_j58506044506346_2_alg».proof.Proof.Gen.Kernel.Skeleton
import proofs.«122430_j58506044506346_2_alg».proof.Proof.Gen.Kernel.Launch
import proofs.«122430_j58506044506346_2_alg».proof.Proof.Gen.Kernel.Points
import proofs.«122430_j58506044506346_2_alg».proof.Proof.Gen.Kernel.Frame
import proofs.«122430_j58506044506346_2_alg».proof.Proof.Gen.KernelIdeal
import proofs.«122430_j58506044506346_2_alg».proof.Proof.Gen.KernelIdeal.Skeleton
import proofs.«122430_j58506044506346_2_alg».proof.Proof.Gen.KernelIdeal.Launch
import proofs.«122430_j58506044506346_2_alg».proof.Proof.Gen.KernelIdeal.Points
import proofs.«122430_j58506044506346_2_alg».proof.Proof.Gen.KernelIdeal.Frame
import proofs.«122430_j58506044506346_2_alg».proof.Proof.Gen.ReferenceIdeal
import proofs.«122430_j58506044506346_2_alg».proof.Proof.Gen.ReferenceIdeal.Run
import proofs.«122430_j58506044506346_2_alg».proof.Proof.Gen.ReferenceIdeal.Read
import proofs.«122430_j58506044506346_2_alg».proof.Proof.Gen.Pre_finite_inputs
import proofs.«122430_j58506044506346_2_alg».proof.Proof.KRun
import proofs.«122430_j58506044506346_2_alg».proof.Proof.KResult
import proofs.«122430_j58506044506346_2_alg».proof.Proof.RefNet
import proofs.«122430_j58506044506346_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.KernelIdeal.Net.netK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact Cert.KernelIdeal.Net.run_post (F := Ideal) m ρ (fun s h c =>
      ⟨(h c _ (Cert.KernelIdeal.Gen.mem_uc Cert.KernelIdeal.main_v56 (by decide))).trans (Cert.KernelIdeal.Net.result_eq m ρ c),
       (h c _ (Cert.KernelIdeal.Gen.mem_uc Cert.KernelIdeal.main_arg0 (by decide))).trans (Cert.KernelIdeal.Gen.W13_main_arg0 m ρ c),
       (h c _ (Cert.KernelIdeal.Gen.mem_uc Cert.KernelIdeal.main_arg1 (by decide))).trans (Cert.KernelIdeal.Gen.W13_main_arg1 m ρ c),
       (h c _ (Cert.KernelIdeal.Gen.mem_uc Cert.KernelIdeal.main_arg2 (by decide))).trans (Cert.KernelIdeal.Gen.W13_main_arg2 m ρ c),
       (h c _ (Cert.KernelIdeal.Gen.mem_uc Cert.KernelIdeal.main_arg3 (by decide))).trans (Cert.KernelIdeal.Gen.W13_main_arg3 m ρ c),
       (h c _ (Cert.KernelIdeal.Gen.mem_uc Cert.KernelIdeal.main_arg4 (by decide))).trans (Cert.KernelIdeal.Gen.W13_main_arg4 m ρ c),
       (h c _ (Cert.KernelIdeal.Gen.mem_uc Cert.KernelIdeal.main_arg5 (by decide))).trans (Cert.KernelIdeal.Gen.W13_main_arg5 m ρ c),
       (h c _ (Cert.KernelIdeal.Gen.mem_uc Cert.KernelIdeal.main_arg6 (by decide))).trans (Cert.KernelIdeal.Gen.W13_main_arg6 m ρ c),
       (h c _ (Cert.KernelIdeal.Gen.mem_uc Cert.KernelIdeal.main_arg7 (by decide))).trans (Cert.KernelIdeal.Gen.W13_main_arg7 m ρ c),
       (h c _ (Cert.KernelIdeal.Gen.mem_uc Cert.KernelIdeal.main_arg8 (by decide))).trans (Cert.KernelIdeal.Gen.W13_main_arg8 m ρ c),
       (h c _ (Cert.KernelIdeal.Gen.mem_uc Cert.KernelIdeal.main_arg9 (by decide))).trans (Cert.KernelIdeal.Gen.W13_main_arg9 m ρ c),
       (h c _ (Cert.KernelIdeal.Gen.mem_uc Cert.KernelIdeal.main_arg10 (by decide))).trans (Cert.KernelIdeal.Gen.W13_main_arg10 m ρ c),
       (h c _ (Cert.KernelIdeal.Gen.mem_uc Cert.KernelIdeal.main_arg11 (by decide))).trans (Cert.KernelIdeal.Gen.W13_main_arg11 m ρ c)⟩)
  · refine (θ_run Cert.ReferenceIdeal.defs _ _).mono (fun r h c => ⟨?_, (h c).2⟩) (Cert.ReferenceIdeal.Value.run (F := Ideal) m' ρ')
    obtain ⟨a0, a1, a2, a3, a4, a5, a6, a7, a8, a9, a10, a11⟩ := hagree c
    rw [(h c).1, Cert.ReferenceIdeal.Read.val_main_v80_eq, Cert.ReferenceIdeal.Net.layer3_eq, a0, a1, a3, a4, a5, a6, a7, a8, a9, a10, a11]
    exact (Cert.Net.Bridge.netK_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
